-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S2x400000 : Shape := ⟨2, ![2, 400000]⟩
abbrev S400000 : Shape := ⟨1, ![400000]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S400000 : S_.BroadcastsInDim S400000 (![] : Fin 0 → Fin S400000.rank)
  reducesTo_S400000_S_d0 : S400000.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S512x256 .f32) (main_arg6 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg5
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S50000x1024 .f32) (main_arg1 : IVec S2x400000 32) (main_arg2 : FVec F S400000 .f32) (main_arg3 : FVec F S1024x512 .f32) (main_arg4 : FVec F S512 .f32) (main_arg5 : FVec F S512x256 .f32) (main_arg6 : FVec F S256 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S400000 .f32 := Host.absf main_arg2
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S1024x512 .f32 := Host.absf main_arg3
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_v13 main_v16
-- ==== Kernel.lean ====
abbrev S50000x1024 : Shape := ⟨2, ![50000, 1024]⟩
abbrev S2x400000 : Shape := ⟨2, ![2, 400000]⟩
abbrev S400000 : Shape := ⟨1, ![400000]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S1x400000 : Shape := ⟨2, ![1, 400000]⟩
abbrev S50000x512 : Shape := ⟨2, ![50000, 512]⟩
abbrev S2000x1024 : Shape := ⟨2, ![2000, 1024]⟩
abbrev S2000x512 : Shape := ⟨2, ![2000, 512]⟩
abbrev S_ : Shape := ⟨0, ![]⟩
abbrev S400000x1 : Shape := ⟨2, ![400000, 1]⟩
abbrev S400000x512 : Shape := ⟨2, ![400000, 512]⟩
abbrev S1x512 : Shape := ⟨2, ![1, 512]⟩
abbrev S50000x256 : Shape := ⟨2, ![50000, 256]⟩
abbrev S2000x256 : Shape := ⟨2, ![2000, 256]⟩
abbrev S400000x256 : Shape := ⟨2, ![400000, 256]⟩
abbrev S1x256 : Shape := ⟨2, ![1, 256]⟩

abbrev nBuf : Space → Nat
  | .hbm => 57
  | .vmem => 10
  | .smem => 0
  | _ => 0

abbrev bufTy : (tb : Table) → Fin (tcTables nBuf tb) → BufTy
  | .hbm, ⟨0, _⟩ => ⟨S50000x1024, .f32⟩
  | .hbm, ⟨1, _⟩ => ⟨S2x400000, .i32⟩
  | .hbm, ⟨2, _⟩ => ⟨S400000, .f32⟩
  | .hbm, ⟨3, _⟩ => ⟨S1024x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S1x400000, .i32⟩
  | .hbm, ⟨8, _⟩ => ⟨S400000, .i32⟩
  | .hbm, ⟨9, _⟩ => ⟨S1x400000, .i32⟩
  | .hbm, ⟨10, _⟩ => ⟨S400000, .i32⟩
  | .hbm, ⟨11, _⟩ => ⟨S50000x512, .f32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x512, .f32⟩
  | .hbm, ⟨21, _⟩ => ⟨S400000x1, .f32⟩
  | .hbm, ⟨22, _⟩ => ⟨S400000x512, .f32⟩
  | .hbm, ⟨23, _⟩ => ⟨S400000x512, .f32⟩
  | .hbm, ⟨24, _⟩ => ⟨S_, .f32⟩
  | .hbm, ⟨25, _⟩ => ⟨S50000x512, .f32⟩
  | .hbm, ⟨26, _⟩ => ⟨S400000x1, .i32⟩
  | .hbm, ⟨27, _⟩ => ⟨S50000x512, .f32⟩
  | .hbm, ⟨28, _⟩ => ⟨S1x512, .f32⟩
  | .hbm, ⟨29, _⟩ => ⟨S50000x512, .f32⟩
  | .hbm, ⟨30, _⟩ => ⟨S50000x512, .f32⟩
  | .hbm, ⟨31, _⟩ => ⟨S_, .f32⟩
  | .hbm, ⟨32, _⟩ => ⟨S50000x512, .f32⟩
  | .hbm, ⟨33, _⟩ => ⟨S50000x512, .f32⟩
  | .hbm, ⟨34, _⟩ => ⟨S50000x256, .f32⟩
  | .hbm, ⟨35, _⟩ => ⟨S_, .i32⟩
  | .hbm, ⟨36, _⟩ => ⟨S400000, .i32⟩
  | .hbm, ⟨37, _⟩ => ⟨S400000, .i1⟩
  | .hbm, ⟨38, _⟩ => ⟨S_, .i32⟩
  | .hbm, ⟨39, _⟩ => ⟨S400000, .i32⟩
  | .hbm, ⟨40, _⟩ => ⟨S400000, .i32⟩
  | .hbm, ⟨41, _⟩ => ⟨S400000, .i32⟩
  | .hbm, ⟨42, _⟩ => ⟨S400000x1, .i32⟩
  | .hbm, ⟨43, _⟩ => ⟨S400000x256, .f32⟩
  | .hbm, ⟨44, _⟩ => ⟨S400000x1, .f32⟩
  | .hbm, ⟨45, _⟩ => ⟨S400000x256, .f32⟩
  | .hbm, ⟨46, _⟩ => ⟨S400000x256, .f32⟩
  | .hbm, ⟨47, _⟩ => ⟨S_, .f32⟩
  | .hbm, ⟨48, _⟩ => ⟨S50000x256, .f32⟩
  | .hbm, ⟨49, _⟩ => ⟨S400000x1, .i32⟩
  | .hbm, ⟨50, _⟩ => ⟨S50000x256, .f32⟩
  | .hbm, ⟨51, _⟩ => ⟨S1x256, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S50000x256, .f32⟩
  | .hbm, ⟨56, _⟩ => ⟨S50000x256, .f32⟩
  | .local _ .vmem, ⟨0, _⟩ => ⟨S2000x1024, .f32⟩
  | .local _ .vmem, ⟨1, _⟩ => ⟨S2000x1024, .f32⟩
  | .local _ .vmem, ⟨2, _⟩ => ⟨S1024x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S512x256, .f32⟩
  | .local _ .vmem, ⟨8, _⟩ => ⟨S2000x256, .f32⟩
  | .local _ .vmem, ⟨9, _⟩ => ⟨S2000x256, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_cst : Ref sig .tc := ⟨.hbm, 54, rfl⟩
abbrev main_call1_v0 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S2000x512_S2000x512_0_0 : ∀ a, (![0, 0] : Fin 2 → Nat) a + S2000x512.size a ≤ S2000x512.size a
  h_S2000x512 : 0 < S2000x512.numel
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x512_0_1 : S400000x1.BroadcastsInDim S400000x512 (![0, 1] : Fin 2 → Fin S400000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S2000x1024_S1024x512_S2000x512_1_0_0_1_n_n_wf : DotDims.WF S2000x1024 S1024x512 S2000x512 [1] [0] [0] [1] [] []
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S2000x512_S512x256_S2000x256_1_0_0_1_n_n_wf : DotDims.WF S2000x512 S512x256 S2000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S50000x1024.size a
  hwx0_0 : ∀ i : grid0.Coords, EltTy.bits .f32 = 32 ∨ (Rect.block (s := S50000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)

variable [Facts₀]

def dot_S2000x1024_S1024x512_S2000x512_1_0_0_1_n_n : DotDims S2000x1024 S1024x512 S2000x512 where
  lhsContracting := [1]
  rhsContracting := [0]
  lhsNonContracting := [0]
  rhsNonContracting := [1]
  lhsBatch := []
  rhsBatch := []
  wf := dot_S2000x1024_S1024x512_S2000x512_1_0_0_1_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x1024 : Shape := ⟨2, ![50000, 1024]⟩
abbrev S2x400000 : Shape := ⟨2, ![2, 400000]⟩
abbrev S400000 : Shape := ⟨1, ![400000]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S1x400000 : Shape := ⟨2, ![1, 400000]⟩
abbrev S50000x512 : Shape := ⟨2, ![50000, 512]⟩
abbrev S_ : Shape := ⟨0, ![]⟩
abbrev S400000x1 : Shape := ⟨2, ![400000, 1]⟩
abbrev S400000x512 : Shape := ⟨2, ![400000, 512]⟩
abbrev S1x512 : Shape := ⟨2, ![1, 512]⟩
abbrev S50000x256 : Shape := ⟨2, ![50000, 256]⟩
abbrev S400000x256 : Shape := ⟨2, ![400000, 256]⟩
abbrev S1x256 : Shape := ⟨2, ![1, 256]⟩

abbrev nBuf : Space → Nat
  | .hbm => 57
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S2x400000, .i32⟩
  | .hbm, ⟨2, _⟩ => ⟨S400000, .f32⟩
  | .hbm, ⟨3, _⟩ => ⟨S1024x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S1x400000, .i32⟩
  | .hbm, ⟨8, _⟩ => ⟨S400000, .i32⟩
  | .hbm, ⟨9, _⟩ => ⟨S1x400000, .i32⟩
  | .hbm, ⟨10, _⟩ => ⟨S400000, .i32⟩
  | .hbm, ⟨11, _⟩ => ⟨S50000x512, .f32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x512, .f32⟩
  | .hbm, ⟨21, _⟩ => ⟨S400000x1, .f32⟩
  | .hbm, ⟨22, _⟩ => ⟨S400000x512, .f32⟩
  | .hbm, ⟨23, _⟩ => ⟨S400000x512, .f32⟩
  | .hbm, ⟨24, _⟩ => ⟨S_, .f32⟩
  | .hbm, ⟨25, _⟩ => ⟨S50000x512, .f32⟩
  | .hbm, ⟨26, _⟩ => ⟨S400000x1, .i32⟩
  | .hbm, ⟨27, _⟩ => ⟨S50000x512, .f32⟩
  | .hbm, ⟨28, _⟩ => ⟨S1x512, .f32⟩
  | .hbm, ⟨29, _⟩ => ⟨S50000x512, .f32⟩
  | .hbm, ⟨30, _⟩ => ⟨S50000x512, .f32⟩
  | .hbm, ⟨31, _⟩ => ⟨S_, .f32⟩
  | .hbm, ⟨32, _⟩ => ⟨S50000x512, .f32⟩
  | .hbm, ⟨33, _⟩ => ⟨S50000x512, .f32⟩
  | .hbm, ⟨34, _⟩ => ⟨S50000x256, .f32⟩
  | .hbm, ⟨35, _⟩ => ⟨S_, .i32⟩
  | .hbm, ⟨36, _⟩ => ⟨S400000, .i32⟩
  | .hbm, ⟨37, _⟩ => ⟨S400000, .i1⟩
  | .hbm, ⟨38, _⟩ => ⟨S_, .i32⟩
  | .hbm, ⟨39, _⟩ => ⟨S400000, .i32⟩
  | .hbm, ⟨40, _⟩ => ⟨S400000, .i32⟩
  | .hbm, ⟨41, _⟩ => ⟨S400000, .i32⟩
  | .hbm, ⟨42, _⟩ => ⟨S400000x1, .i32⟩
  | .hbm, ⟨43, _⟩ => ⟨S400000x256, .f32⟩
  | .hbm, ⟨44, _⟩ => ⟨S400000x1, .f32⟩
  | .hbm, ⟨45, _⟩ => ⟨S400000x256, .f32⟩
  | .hbm, ⟨46, _⟩ => ⟨S400000x256, .f32⟩
  | .hbm, ⟨47, _⟩ => ⟨S_, .f32⟩
  | .hbm, ⟨48, _⟩ => ⟨S50000x256, .f32⟩
  | .hbm, ⟨49, _⟩ => ⟨S400000x1, .i32⟩
  | .hbm, ⟨50, _⟩ => ⟨S50000x256, .f32⟩
  | .hbm, ⟨51, _⟩ => ⟨S1x256, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S50000x256, .f32⟩
  | .hbm, ⟨56, _⟩ => ⟨S50000x256, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_cst : Ref sig .tc := ⟨.hbm, 54, rfl⟩
abbrev main_call1_v0 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x512_0_1 : S400000x1.BroadcastsInDim S400000x512 (![0, 1] : Fin 2 → Fin S400000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x1024_S1024x512_S50000x512_1_0_0_1_n_n_wf : DotDims.WF S50000x1024 S1024x512 S50000x512 [1] [0] [0] [1] [] []
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S50000x512_S512x256_S50000x256_1_0_0_1_n_n_wf : DotDims.WF S50000x512 S512x256 S50000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1

variable [Facts₀]

def dot_S50000x1024_S1024x512_S50000x512_1_0_0_1_n_n : DotDims S50000x1024 S1024x512 S50000x512 where
  lhsContracting := [1]
  rhsContracting := [0]
  lhsNonContracting := [0]
  rhsNonContracting := [1]
  lhsBatch := []
  rhsBatch := []
  wf := dot_S50000x1024_S1024x512_S50000x512_1_0_0_1_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf

class Facts : Prop extends Facts₀ where

variable [Facts]
-- ==== Proof.KernelRun.lean ====
/-
  The kernel program's run, with its result named.

  The program is seven segments in a row: a stretch of host operations (the two index rows cut out of the edge list),
  the first matmul region, the host operations of the first aggregation and its floor at zero, the second matmul
  region, and the host operations of the second aggregation and its floor.  Every weakly fair execution runs them in
  that order and terminates, and at the end each buffer the program does not scope holds what the fold of the segments
  over the launch memory puts there (the last boundary's contents).  Read at the result buffer and at the seven
  arguments this says: the result ends at the last boundary's contents of its buffer, and every argument ends as
  launched.
-/
import proofs.«121326_j42125039239628_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates with the result buffer at the last boundary's
    contents and the arguments as launched. -/
theorem run_result : θ_run defs (onTc (τ := τ) (main (F := F))) ⟨m, fun _ => 0, ρ⟩ (fun r => ∀ c : Dev nD,
      r.2.mem ((c.tc : Thread nD τ).loc main_v39) = W7 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v39 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Bridge

end
-- ==== Proof.Layers.lean ====
/-
  The host side of one graph-convolution layer, as one function.

  Given the node features s after the layer's matmul, the edge list's two rows (source and destination node per edge),
  the edge weights w and the bias b, a layer gathers row src(e) of s for every edge e (a negative index wrapped by the
  number of nodes first), scales it by w(e), adds the scaled rows into row dst(e) of a zero matrix, adds the bias to every
  row and floors the result at zero.  Both programs apply exactly these operations after each of their two matmuls, so
  the proof carries each layer as one function and never looks inside it.
-/
import proofs.«121326_j42125039239628_1_alg».proof.Proof.Gen.KernelIdeal

noncomputable section

namespace Cert.KernelIdeal.Bridge

open Cert.KernelIdeal Cert.KernelIdeal.Gen Idealize.ShloMosaic

variable {F : FTy → Type} [FloatOps F]

/-- The source node of every edge: row 0 of the edge list. -/
def sourceRow (e : (⟨S2x400000, .i32⟩ : BufTy).Contents (Elt F)) : (⟨S400000, .i32⟩ : BufTy).Contents (Elt F) :=
  shapeCast _ (extractStridedSlice S1x400000 ![0, 0] e slices_S2x400000_S1x400000_0_0) shapeCasts_S1x400000_S400000

/-- The destination node of every edge: row 1 of the edge list. -/
def targetRow (e : (⟨S2x400000, .i32⟩ : BufTy).Contents (Elt F)) : (⟨S400000, .i32⟩ : BufTy).Contents (Elt F) :=
  shapeCast _ (extractStridedSlice S1x400000 ![1, 0] e slices_S2x400000_S1x400000_1_0) shapeCasts_S1x400000_S400000

/-- The first layer's aggregation, bias and floor at zero, on 512 features. -/
def aggregate512 (s : (⟨S50000x512, .f32⟩ : BufTy).Contents (Elt F)) (src dst : (⟨S400000, .i32⟩ : BufTy).Contents (Elt F))
    (w : (⟨S400000, .f32⟩ : BufTy).Contents (Elt F)) (b : (⟨S512, .f32⟩ : BufTy).Contents (Elt F)) :
    (⟨S50000x512, .f32⟩ : BufTy).Contents (Elt F) :=
  maximumf (addf (Host.scatterAdd scatter_S50000x512_S400000x1_S400000x512_1_0_0_1
      (broadcastInDim S50000x512 ![] bcast_S_S50000x512 (constant S_ .f32 0x00000000#32))
      (broadcastInDim S400000x1 ![0] bcast_S400000_S400000x1_0 dst)
      (mulf (Host.gather gather_S50000x512_S400000x1_S400000x512_1_0_n_n_0_1_1512 s
          (broadcastInDim S400000x1 ![0] bcast_S400000_S400000x1_0
            (select (cmpi .slt src (broadcastInDim S400000 ![] bcast_S_S400000 (constantI S_ 32 0#32)))
              (addi src (broadcastInDim S400000 ![] bcast_S_S400000 (constantI S_ 32 50000#32))) src)))
        (broadcastInDim S400000x512 ![0, 1] bcast_S400000x1_S400000x512_0_1 (broadcastInDim S400000x1 ![0] bcast_S400000_S400000x1_0 w))))
    (broadcastInDim S50000x512 ![0, 1] bcast_S1x512_S50000x512_0_1 (broadcastInDim S1x512 ![1] bcast_S512_S1x512_1 b)))
    (broadcastInDim S50000x512 ![] bcast_S_S50000x512 (constant S_ .f32 0x00000000#32))

/-- The second layer's aggregation, bias and floor at zero, on 256 features. -/
def aggregate256 (s : (⟨S50000x256, .f32⟩ : BufTy).Contents (Elt F)) (src dst : (⟨S400000, .i32⟩ : BufTy).Contents (Elt F))
    (w : (⟨S400000, .f32⟩ : BufTy).Contents (Elt F)) (b : (⟨S256, .f32⟩ : BufTy).Contents (Elt F)) :
    (⟨S50000x256, .f32⟩ : BufTy).Contents (Elt F) :=
  maximumf (addf (Host.scatterAdd scatter_S50000x256_S400000x1_S400000x256_1_0_0_1
      (broadcastInDim S50000x256 ![] bcast_S_S50000x256 (constant S_ .f32 0x00000000#32))
      (broadcastInDim S400000x1 ![0] bcast_S400000_S400000x1_0 dst)
      (mulf (Host.gather gather_S50000x256_S400000x1_S400000x256_1_0_n_n_0_1_1256 s
          (broadcastInDim S400000x1 ![0] bcast_S400000_S400000x1_0
            (select (cmpi .slt src (broadcastInDim S400000 ![] bcast_S_S400000 (constantI S_ 32 0#32)))
              (addi src (broadcastInDim S400000 ![] bcast_S_S400000 (constantI S_ 32 50000#32))) src)))
        (broadcastInDim S400000x256 ![0, 1] bcast_S400000x1_S400000x256_0_1 (broadcastInDim S400000x1 ![0] bcast_S400000_S400000x1_0 w))))
    (broadcastInDim S50000x256 ![0, 1] bcast_S1x256_S50000x256_0_1 (broadcastInDim S1x256 ![1] bcast_S256_S1x256_1 b)))
    (broadcastInDim S50000x256 ![] bcast_S_S50000x256 (constant S_ .f32 0x00000000#32))

end Cert.KernelIdeal.Bridge

end
-- ==== Proof.HostStretches.lean ====
/-
  The kernel program's three stretches of host operations, read over any starting contents.

  From whatever the buffers hold when a stretch starts (U), the first stretch leaves the two rows of the edge list in
  their own buffers; the second, the first layer's aggregation of the buffer the first matmul region wrote; the third,
  the second layer's aggregation of the buffer the second region wrote.  Each stretch leaves alone the buffers that later
  segments still read (the edge rows, the weights, the second weight matrix, the biases).
-/
import proofs.«121326_j42125039239628_1_alg».proof.Proof.Gen.KernelIdeal.Launch
import proofs.«121326_j42125039239628_1_alg».proof.Proof.Layers
import Idealize.ShloMosaic.Lib.StableHlo.Run

set_option maxRecDepth 16384

noncomputable section

namespace Cert.KernelIdeal.Bridge

open Cert.KernelIdeal Cert.KernelIdeal.Gen Idealize.ShloMosaic Idealize.ShloMosaic.TcCoe Idealize.ShloMosaic.StableHlo

variable {F : FTy → Type} [FloatOps F] (U : Valuation τ sig (Elt F))

/-! ## Before the first region: the edge list's rows -/

theorem stretch0_source : after hostOps0 U (Proc.devRef .tc main_v1) = sourceRow (U (Proc.devRef .tc main_arg1)) := by
  after_results_simp
  rfl

theorem stretch0_target : after hostOps0 U (Proc.devRef .tc main_v3) = targetRow (U (Proc.devRef .tc main_arg1)) := by
  after_results_simp
  rfl

theorem stretch0_keep_main_arg0 : after hostOps0 U (Proc.devRef .tc main_arg0) = U (Proc.devRef .tc main_arg0) := by
  after_results_simp
theorem stretch0_keep_main_arg2 : after hostOps0 U (Proc.devRef .tc main_arg2) = U (Proc.devRef .tc main_arg2) := by
  after_results_simp
theorem stretch0_keep_main_arg3 : after hostOps0 U (Proc.devRef .tc main_arg3) = U (Proc.devRef .tc main_arg3) := by
  after_results_simp
theorem stretch0_keep_main_arg4 : after hostOps0 U (Proc.devRef .tc main_arg4) = U (Proc.devRef .tc main_arg4) := by
  after_results_simp
theorem stretch0_keep_main_arg5 : after hostOps0 U (Proc.devRef .tc main_arg5) = U (Proc.devRef .tc main_arg5) := by
  after_results_simp
theorem stretch0_keep_main_arg6 : after hostOps0 U (Proc.devRef .tc main_arg6) = U (Proc.devRef .tc main_arg6) := by
  after_results_simp

/-! ## Between the regions: the first layer's aggregation -/

theorem stretch1_result : after hostOps1_1 (after hostOps1 U) (Proc.devRef .tc main_v21)
    = aggregate512 (U (Proc.devRef .tc main_v4)) (U (Proc.devRef .tc main_v1)) (U (Proc.devRef .tc main_v3))
        (U (Proc.devRef .tc main_arg2)) (U (Proc.devRef .tc main_arg4)) := by
  after_results_simp
  rfl

theorem stretch1_keep_main_v1 : after hostOps1_1 (after hostOps1 U) (Proc.devRef .tc main_v1) = U (Proc.devRef .tc main_v1) := by
  after_results_simp
theorem stretch1_keep_main_v3 : after hostOps1_1 (after hostOps1 U) (Proc.devRef .tc main_v3) = U (Proc.devRef .tc main_v3) := by
  after_results_simp
theorem stretch1_keep_main_arg2 : after hostOps1_1 (after hostOps1 U) (Proc.devRef .tc main_arg2) = U (Proc.devRef .tc main_arg2) := by
  after_results_simp
theorem stretch1_keep_main_arg5 : after hostOps1_1 (after hostOps1 U) (Proc.devRef .tc main_arg5) = U (Proc.devRef .tc main_arg5) := by
  after_results_simp
theorem stretch1_keep_main_arg6 : after hostOps1_1 (after hostOps1 U) (Proc.devRef .tc main_arg6) = U (Proc.devRef .tc main_arg6) := by
  after_results_simp

/-! ## After the second region: the second layer's aggregation -/

theorem stretch2_result : after hostOps2_1 (after hostOps2 U) (Proc.devRef .tc main_v39)
    = aggregate256 (U (Proc.devRef .tc main_v22)) (U (Proc.devRef .tc main_v1)) (U (Proc.devRef .tc main_v3))
        (U (Proc.devRef .tc main_arg2)) (U (Proc.devRef .tc main_arg6)) := by
  after_results_simp
  rfl

end Cert.KernelIdeal.Bridge

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.BlockProduct.lean ====
/-
  One grid point of either matmul region, read at an entry.

  A point's body loads a block of 2000 rows of the left matrix and the whole right matrix, rounds both to bf16 (on the
  extended reals a change of float format is the identity), multiplies them on the matrix unit into a zero accumulator
  and stores the product.  So the stored block, at row p and column o, is the sum over the contracted coordinate j of
  left(p, j) · right(j, o).  The second region first casts its left block to its own shape, which changes nothing.
-/
import proofs.«121326_j42125039239628_1_alg».proof.Proof.Gen.KernelIdeal.Skeleton
import proofs.«121326_j42125039239628_1_alg».proof.Proof.LibPlainDot
import Idealize.ShloMosaic.Lib.Pipeline.Value
import Idealize.ShloMosaic.Lib.ValueIdx
import Idealize.ShloMosaic.PureOps.Ideal.Laws

noncomputable section

namespace Cert.KernelIdeal.Bridge

open Cert.KernelIdeal Cert.KernelIdeal.Gen Idealize.ShloMosaic Idealize.ShloMosaic.ValueIdx

/-- Region 0: the stored block at (p, o) is row p of the loaded left block against column o of the right matrix. -/
theorem blockProduct0_apply (x0 : Vec Ideal S2000x1024 .f32) (x1 : Vec Ideal S1024x512 .f32) (p : Fin 2000) (o : Fin 512) :
    k0_pay1 (F := Ideal) x0 x1 (ix2 p o) = ∑ j : Fin 1024, x0 (ix2 p j) * x1 (ix2 j o) :=
  Cert.LibPlainDot.matmul_zero_apply dot_S2000x1024_S1024x512_S2000x512_1_0_0_1_n_n rfl rfl rfl rfl rfl rfl none x0 x1 p o

/-- Region 1: the same, after the identity cast of the left block. -/
theorem blockProduct1_apply (x0 : Vec Ideal S2000x512 .f32) (x1 : Vec Ideal S512x256 .f32) (p : Fin 2000) (o : Fin 256) :
    k1_pay1 (F := Ideal) x0 x1 (ix2 p o) = ∑ j : Fin 512, x0 (ix2 p j) * x1 (ix2 j o) := by
  unfold k1_pay1
  rw [shapeCast_self]
  exact Cert.LibPlainDot.matmul_zero_apply dot_S2000x512_S512x256_S2000x256_1_0_0_1_n_n rfl rfl rfl rfl rfl rfl none x0 x1 p o

end Cert.KernelIdeal.Bridge

end
-- ==== Proof.MatProduct.lean ====
/-
  The product of two matrices over the extended reals, entry by entry: entry (r, o) of the product of an [n, k] matrix
  with a [k, d] matrix is the sum over j of a(r, j) · b(j, o).  Both programs' matmuls are read against this one
  function: the kernel's regions compute it 2000 rows at a time, the reference computes it whole.
-/
import Idealize.ShloMosaic.PureOps.Ideal
import Idealize.ShloMosaic.Lib.ValueIdx

noncomputable section

namespace Cert.MatProduct

open Idealize.ShloMosaic Idealize.ShloMosaic.ValueIdx

/-- Entry i = (r, o) of the product: row r of a against column o of b. -/
def matProduct {n k d : ℕ} (a : (⟨2, ![n, k]⟩ : Shape).Idx → EReal) (b : (⟨2, ![k, d]⟩ : Shape).Idx → EReal) :
    (⟨2, ![n, d]⟩ : Shape).Idx → EReal :=
  fun i => ∑ j : Fin k, a (ix2 (i 0) j) * b (ix2 j (i 1))

/-- The product at the entry built from its two coordinates. -/
theorem matProduct_ix2 {n k d : ℕ} (a : (⟨2, ![n, k]⟩ : Shape).Idx → EReal) (b : (⟨2, ![k, d]⟩ : Shape).Idx → EReal)
    (r : Fin n) (o : Fin d) : matProduct a b (ix2 r o) = ∑ j : Fin k, a (ix2 r j) * b (ix2 j o) := rfl

end Cert.MatProduct

end
-- ==== Proof.RegionArrays.lean ====
/-
  What each matmul region leaves in its result array.

  A region runs its body at 25 grid points; point t stages rows 2000·t … 2000·t + 1999 of the left matrix and the whole
  right matrix, and writes the body's product back as rows 2000·t … 2000·t + 1999 of the result.  Entry (p, o) of that
  band is row 2000·t + p of the left matrix against column o of the right one, which is entry (2000·t + p, o) of the
  whole product; the 25 bands fill the 50000 rows.  So after the region the result array IS the whole product, whatever
  the two operand arrays held when the region was entered.
-/
import proofs.«121326_j42125039239628_1_alg».proof.Proof.Gen.KernelIdeal.Frame
import proofs.«121326_j42125039239628_1_alg».proof.Proof.BlockProduct
import proofs.«121326_j42125039239628_1_alg».proof.Proof.MatProduct
import Idealize.ShloMosaic.Lib.Pipeline.Value
import Idealize.ShloMosaic.Lib.ValueIdx

set_option maxRecDepth 16384

noncomputable section

namespace Cert.KernelIdeal.Bridge

open Cert.KernelIdeal Cert.KernelIdeal.Gen Cert.MatProduct
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Every load and store of the bodies starts at the origin of its buffer. -/
theorem origin_zero : (![0, 0] : Fin 2 → Nat) = fun _ => 0 := funext fun a => by fin_cases a <;> rfl

/-! ## Region 0: the [50000, 1024] matrix in `main_arg0` times the [1024, 512] matrix in `main_arg3`, into `main_v4` -/

/-- Where each window's block sits at grid point t: the left operand's and the result's block is the t-th band of
    2000 rows, all columns; the right operand's block is the whole matrix at every point. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is the t-th band of rows of the whole product: its left block is rows
    2000·t … 2000·t + 1999 of the left matrix and its right block the whole right matrix, so entry (p, o) of the stored
    block is entry (2000·t + p, o) of the product. -/
theorem written0 (c : Dev nD) (t : Fin cfg0.N) :
    (dat0 V c).flushed 2 t = ((cfg0.win 2).blk t).view.read (Elt Ideal)
      (matProduct (n := 50000) (k := 1024) (d := 512) (V c main_arg0) (V c main_arg3)) := by
  show (cfg0.win 2).cut (grid0.coords t) ((dat0 V c).after 2 t) = _
  rw [after0_2]
  unfold out0_2
  rw [View.canon_unit_zero origin_zero]
  simp only [View.ld_unit_zero (S := S2000x1024) origin_zero, View.ld_unit_zero (S := S1024x512) origin_zero]
  obtain ⟨e00, e01, e10, e11, e20, e21⟩ := blockIndex0 t
  funext y
  obtain ⟨p, o, rfl⟩ : ∃ (p : Fin 2000) (o : Fin 512), y = ix2 p o := ⟨y 0, y 1, eq_ix2 y⟩
  show k0_pay1 (iblk0 V c 0 t) (iblk0 V c 1 t) (ix2 p o)
    = matProduct (n := 50000) (k := 1024) (d := 512) (V c main_arg0) (V c main_arg3) (((cfg0.win 2).blk t).view.emb (ix2 p o))
  refine (blockProduct0_apply _ _ p o).trans ?_
  unfold matProduct
  refine Finset.sum_congr rfl fun j _ => ?_
  have hl : iblk0 V c 0 t (ix2 p j) = V c main_arg0 (ix2 ((((cfg0.win 2).blk t).view.emb (ix2 p o)) 0) j) := by
    show V c main_arg0 (((cfg0.win 0).blk t).view.emb (ix2 p j)) = _
    refine congrArg _ (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 1024 + 1 * j.val = j.val; omega
  have hr : iblk0 V c 1 t (ix2 j o) = V c main_arg3 (ix2 j ((((cfg0.win 2).blk t).view.emb (ix2 p o)) 1)) := by
    show V c main_arg3 (((cfg0.win 1).blk t).view.emb (ix2 j o)) = _
    refine congrArg _ (funext fun a => Fin.ext ?_)
    match a with
    | ⟨0, _⟩ => show win0_1.index t (0 : Fin 2) * 1024 + 1 * j.val = j.val; omega
    | ⟨1, _⟩ => show win0_1.index t (1 : Fin 2) * 512 + 1 * o.val = win0_2.index t (1 : Fin 2) * 512 + 1 * o.val; omega
  rw [hl, hr]

/-- An entry of the result array lies in point t's block iff each coordinate lies in the block's span on its axis. -/
theorem mem_block0 (t : Fin cfg0.N) (i : S50000x512.Idx) :
    i ∈ ((cfg0.win 2).blk t).view.set ↔ ∀ a : Fin 2, win0_2.index t a * S2000x512.size a ≤ (i a).val
      ∧ (i a).val < win0_2.index t a * S2000x512.size a + S2000x512.size a := by
  show i ∈ ((View.whole main_v4).slice (win0_2.rect t)).set ↔ _
  rw [View.set_slice_whole, Rect.mem_set_unit]
  exact Iff.rfl

/-- The 25 bands of 2000 rows fill the 50000 rows: row r is written by point r / 2000. -/
theorem covered0 (i : S50000x512.Idx) :
    ∃ t : Fin cfg0.N, (cfg0.win 2).flush t = true ∧ i ∈ ((cfg0.win 2).blk t).view.set := by
  have hi0 : (i 0).val < 50000 := (i 0).isLt
  have hi1 : (i 1).val < 512 := (i 1).isLt
  have ht : (i 0).val / 2000 < 25 := by omega
  obtain ⟨-, -, -, -, e20, e21⟩ := blockIndex0 (Fin.cast N_0.symm ⟨(i 0).val / 2000, ht⟩)
  have hv : (Fin.cast N_0.symm (⟨(i 0).val / 2000, ht⟩ : Fin 25)).val = (i 0).val / 2000 := rfl
  refine ⟨Fin.cast N_0.symm ⟨(i 0).val / 2000, ht⟩, flush0_2 _, ?_⟩
  rw [mem_block0]
  intro a
  match a with
  | ⟨0, _⟩ =>
    show win0_2.index _ (0 : Fin 2) * 2000 ≤ (i 0).val ∧ (i 0).val < win0_2.index _ (0 : Fin 2) * 2000 + 2000
    rw [e20, hv]; omega
  | ⟨1, _⟩ =>
    show win0_2.index _ (1 : Fin 2) * 512 ≤ (i 1).val ∧ (i 1).val < win0_2.index _ (1 : Fin 2) * 512 + 512
    rw [e21]; omega

/-- The result array after the region is the whole product of the two operand arrays as the region found them. -/
theorem region0_array (c : Dev nD) :
    (dat0 V c).arrAt 2 cfg0.N = matProduct (n := 50000) (k := 1024) (d := 512) (V c main_arg0) (V c main_arg3) :=
  (dat0 V c).arrAt_eq_of_cover 2 _ (fun t _ => written0 V c t) (covered0)

/-! ## Region 1: the [50000, 512] matrix in `main_v21` times the [512, 256] matrix in `main_arg5`, into `main_v22` -/

/-- Where each window's block sits at grid point t: the left operand's and the result's block is the t-th band of
    2000 rows, all columns; the right operand's block is the whole matrix at every point. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is the t-th band of rows of the whole product: its left block is rows
    2000·t … 2000·t + 1999 of the left matrix and its right block the whole right matrix, so entry (p, o) of the stored
    block is entry (2000·t + p, o) of the product. -/
theorem written1 (c : Dev nD) (t : Fin cfg1.N) :
    (dat1 V c).flushed 2 t = ((cfg1.win 2).blk t).view.read (Elt Ideal)
      (matProduct (n := 50000) (k := 512) (d := 256) (V c main_v21) (V c main_arg5)) := by
  show (cfg1.win 2).cut (grid1.coords t) ((dat1 V c).after 2 t) = _
  rw [after1_2]
  unfold out1_2
  rw [View.canon_unit_zero origin_zero]
  simp only [View.ld_unit_zero (S := S2000x512) origin_zero, View.ld_unit_zero (S := S512x256) origin_zero]
  obtain ⟨e00, e01, e10, e11, e20, e21⟩ := blockIndex1 t
  funext y
  obtain ⟨p, o, rfl⟩ : ∃ (p : Fin 2000) (o : Fin 256), y = ix2 p o := ⟨y 0, y 1, eq_ix2 y⟩
  show k1_pay1 (iblk1 V c 0 t) (iblk1 V c 1 t) (ix2 p o)
    = matProduct (n := 50000) (k := 512) (d := 256) (V c main_v21) (V c main_arg5) (((cfg1.win 2).blk t).view.emb (ix2 p o))
  refine (blockProduct1_apply _ _ p o).trans ?_
  unfold matProduct
  refine Finset.sum_congr rfl fun j _ => ?_
  have hl : iblk1 V c 0 t (ix2 p j) = V c main_v21 (ix2 ((((cfg1.win 2).blk t).view.emb (ix2 p o)) 0) j) := by
    show V c main_v21 (((cfg1.win 0).blk t).view.emb (ix2 p j)) = _
    refine congrArg _ (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 512 + 1 * j.val = j.val; omega
  have hr : iblk1 V c 1 t (ix2 j o) = V c main_arg5 (ix2 j ((((cfg1.win 2).blk t).view.emb (ix2 p o)) 1)) := by
    show V c main_arg5 (((cfg1.win 1).blk t).view.emb (ix2 j o)) = _
    refine congrArg _ (funext fun a => Fin.ext ?_)
    match a with
    | ⟨0, _⟩ => show win1_1.index t (0 : Fin 2) * 512 + 1 * j.val = j.val; omega
    | ⟨1, _⟩ => show win1_1.index t (1 : Fin 2) * 256 + 1 * o.val = win1_2.index t (1 : Fin 2) * 256 + 1 * o.val; omega
  rw [hl, hr]

/-- An entry of the result array lies in point t's block iff each coordinate lies in the block's span on its axis. -/
theorem mem_block1 (t : Fin cfg1.N) (i : S50000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v22).slice (win1_2.rect t)).set ↔ _
  rw [View.set_slice_whole, Rect.mem_set_unit]
  exact Iff.rfl

/-- The 25 bands of 2000 rows fill the 50000 rows: row r is written by point r / 2000. -/
theorem covered1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have ht : (i 0).val / 2000 < 25 := by omega
  obtain ⟨-, -, -, -, e20, e21⟩ := blockIndex1 (Fin.cast N_1.symm ⟨(i 0).val / 2000, ht⟩)
  have hv : (Fin.cast N_1.symm (⟨(i 0).val / 2000, ht⟩ : Fin 25)).val = (i 0).val / 2000 := rfl
  refine ⟨Fin.cast N_1.symm ⟨(i 0).val / 2000, ht⟩, flush1_2 _, ?_⟩
  rw [mem_block1]
  intro a
  match a with
  | ⟨0, _⟩ =>
    show win1_2.index _ (0 : Fin 2) * 2000 ≤ (i 0).val ∧ (i 0).val < win1_2.index _ (0 : Fin 2) * 2000 + 2000
    rw [e20, hv]; omega
  | ⟨1, _⟩ =>
    show win1_2.index _ (1 : Fin 2) * 256 ≤ (i 1).val ∧ (i 1).val < win1_2.index _ (1 : Fin 2) * 256 + 256
    rw [e21]; omega

/-- The result array after the region is the whole product of the two operand arrays as the region found them. -/
theorem region1_array (c : Dev nD) :
    (dat1 V c).arrAt 2 cfg1.N = matProduct (n := 50000) (k := 512) (d := 256) (V c main_v21) (V c main_arg5) :=
  (dat1 V c).arrAt_eq_of_cover 2 _ (fun t _ => written1 V c t) (covered1)

end Cert.KernelIdeal.Bridge

end
-- ==== Proof.Encoder.lean ====
/-
  The two-layer graph-convolution encoder as one function of its seven argument arrays, on the extended reals:
  the node features x times the first weight matrix, aggregated along the edges with the first bias and floored at zero;
  that times the second weight matrix, aggregated along the same edges with the second bias and floored at zero.
  Both programs are shown to compute this function.
-/
import proofs.«121326_j42125039239628_1_alg».proof.Proof.Layers
import proofs.«121326_j42125039239628_1_alg».proof.Proof.MatProduct

noncomputable section

namespace Cert.KernelIdeal.Bridge

open Cert.KernelIdeal Idealize.ShloMosaic Cert.MatProduct

/-- The encoder's result from the node features x, the edge list e, the edge weights w, and the two layers' weight
    matrices and biases. -/
def encoder (x : (⟨S50000x1024, .f32⟩ : BufTy).Contents (Elt Ideal)) (e : (⟨S2x400000, .i32⟩ : BufTy).Contents (Elt Ideal))
    (w : (⟨S400000, .f32⟩ : BufTy).Contents (Elt Ideal)) (W1 : (⟨S1024x512, .f32⟩ : BufTy).Contents (Elt Ideal))
    (b1 : (⟨S512, .f32⟩ : BufTy).Contents (Elt Ideal)) (W2 : (⟨S512x256, .f32⟩ : BufTy).Contents (Elt Ideal))
    (b2 : (⟨S256, .f32⟩ : BufTy).Contents (Elt Ideal)) : (⟨S50000x256, .f32⟩ : BufTy).Contents (Elt Ideal) :=
  aggregate256 (F := Ideal)
    (matProduct (n := 50000) (k := 512) (d := 256)
      (aggregate512 (F := Ideal) (matProduct (n := 50000) (k := 1024) (d := 512) x W1) (sourceRow e) (targetRow e) w b1) W2)
    (sourceRow e) (targetRow e) w b2

end Cert.KernelIdeal.Bridge

end
-- ==== Proof.KernelValue.lean ====
/-
  The kernel program's result as a function of its arguments.

  The buffer contents are followed from the launch to the return, boundary by boundary.  After the first host stretch
  the two edge rows sit in their buffers and the arguments are untouched.  The first region replaces its result buffer
  by the product of the node features with the first weight matrix and touches nothing else.  The second stretch turns
  that into the first layer's output and keeps the edge rows, the weights, the second weight matrix and the second bias.
  The second region replaces its result buffer by the product of the first layer's output with the second weight matrix.
  The last stretch turns that into the second layer's output, which is the program's result: the encoder of the arguments.
-/
import proofs.«121326_j42125039239628_1_alg».proof.Proof.Gen.KernelIdeal.Frame
import proofs.«121326_j42125039239628_1_alg».proof.Proof.HostStretches
import proofs.«121326_j42125039239628_1_alg».proof.Proof.RegionArrays
import proofs.«121326_j42125039239628_1_alg».proof.Proof.Encoder

set_option maxRecDepth 16384

noncomputable section

namespace Cert.KernelIdeal.Bridge

open Cert.KernelIdeal Cert.KernelIdeal.Gen Cert.MatProduct
open Idealize.ShloMosaic Idealize.ShloMosaic.TcCoe Idealize.SL.Sem

variable (m : (ℓ : Loc nD τ sig) → Buf (Elt Ideal) ℓ) (ρ : Dev nD → PrngReg)

/-! ## At the first region's entry -/

theorem entry0_source (c : Dev nD) : W1 m ρ c (Proc.devRef .tc main_v1) = sourceRow (m ((c : Thread nD τ).loc main_arg1)) :=
  stretch0_source (W0 m ρ c)
theorem entry0_target (c : Dev nD) : W1 m ρ c (Proc.devRef .tc main_v3) = targetRow (m ((c : Thread nD τ).loc main_arg1)) :=
  stretch0_target (W0 m ρ c)
theorem entry0_arg0 (c : Dev nD) : W1 m ρ c (Proc.devRef .tc main_arg0) = (m ((c : Thread nD τ).loc main_arg0)) :=
  stretch0_keep_main_arg0 (W0 m ρ c)
theorem entry0_arg2 (c : Dev nD) : W1 m ρ c (Proc.devRef .tc main_arg2) = (m ((c : Thread nD τ).loc main_arg2)) :=
  stretch0_keep_main_arg2 (W0 m ρ c)
theorem entry0_arg3 (c : Dev nD) : W1 m ρ c (Proc.devRef .tc main_arg3) = (m ((c : Thread nD τ).loc main_arg3)) :=
  stretch0_keep_main_arg3 (W0 m ρ c)
theorem entry0_arg4 (c : Dev nD) : W1 m ρ c (Proc.devRef .tc main_arg4) = (m ((c : Thread nD τ).loc main_arg4)) :=
  stretch0_keep_main_arg4 (W0 m ρ c)
theorem entry0_arg5 (c : Dev nD) : W1 m ρ c (Proc.devRef .tc main_arg5) = (m ((c : Thread nD τ).loc main_arg5)) :=
  stretch0_keep_main_arg5 (W0 m ρ c)
theorem entry0_arg6 (c : Dev nD) : W1 m ρ c (Proc.devRef .tc main_arg6) = (m ((c : Thread nD τ).loc main_arg6)) :=
  stretch0_keep_main_arg6 (W0 m ρ c)

/-! ## At the first region's exit -/

theorem exit0_product (c : Dev nD) :
    W2 m ρ c (Proc.devRef .tc main_v4) = matProduct (n := 50000) (k := 1024) (d := 512) (m ((c : Thread nD τ).loc main_arg0)) (m ((c : Thread nD τ).loc main_arg3)) := by
  refine (W2_arr m ρ c 2).trans ((region0_array (V1 m ρ) c).trans ?_)
  show matProduct (n := 50000) (k := 1024) (d := 512) (W1 m ρ c (Proc.devRef .tc main_arg0)) (W1 m ρ c (Proc.devRef .tc main_arg3)) = _
  rw [entry0_arg0, entry0_arg3]
theorem exit0_source (c : Dev nD) : W2 m ρ c (Proc.devRef .tc main_v1) = sourceRow (m ((c : Thread nD τ).loc main_arg1)) :=
  (W2_of_ne m ρ c main_v1 (by decide)).trans (entry0_source m ρ c)
theorem exit0_target (c : Dev nD) : W2 m ρ c (Proc.devRef .tc main_v3) = targetRow (m ((c : Thread nD τ).loc main_arg1)) :=
  (W2_of_ne m ρ c main_v3 (by decide)).trans (entry0_target m ρ c)
theorem exit0_arg2 (c : Dev nD) : W2 m ρ c (Proc.devRef .tc main_arg2) = (m ((c : Thread nD τ).loc main_arg2)) :=
  (W2_of_ne m ρ c main_arg2 (by decide)).trans (entry0_arg2 m ρ c)
theorem exit0_arg4 (c : Dev nD) : W2 m ρ c (Proc.devRef .tc main_arg4) = (m ((c : Thread nD τ).loc main_arg4)) :=
  (W2_of_ne m ρ c main_arg4 (by decide)).trans (entry0_arg4 m ρ c)
theorem exit0_arg5 (c : Dev nD) : W2 m ρ c (Proc.devRef .tc main_arg5) = (m ((c : Thread nD τ).loc main_arg5)) :=
  (W2_of_ne m ρ c main_arg5 (by decide)).trans (entry0_arg5 m ρ c)
theorem exit0_arg6 (c : Dev nD) : W2 m ρ c (Proc.devRef .tc main_arg6) = (m ((c : Thread nD τ).loc main_arg6)) :=
  (W2_of_ne m ρ c main_arg6 (by decide)).trans (entry0_arg6 m ρ c)

/-! ## At the second region's entry -/

theorem entry1_layer (c : Dev nD) : W4 m ρ c (Proc.devRef .tc main_v21)
    = aggregate512 (F := Ideal) (matProduct (n := 50000) (k := 1024) (d := 512) (m ((c : Thread nD τ).loc main_arg0)) (m ((c : Thread nD τ).loc main_arg3)))
        (sourceRow (m ((c : Thread nD τ).loc main_arg1))) (targetRow (m ((c : Thread nD τ).loc main_arg1))) (m ((c : Thread nD τ).loc main_arg2)) (m ((c : Thread nD τ).loc main_arg4)) := by
  refine (stretch1_result (W2 m ρ c)).trans ?_
  rw [exit0_product, exit0_source, exit0_target, exit0_arg2, exit0_arg4]
theorem entry1_source (c : Dev nD) : W4 m ρ c (Proc.devRef .tc main_v1) = sourceRow (m ((c : Thread nD τ).loc main_arg1)) :=
  (stretch1_keep_main_v1 (W2 m ρ c)).trans (exit0_source m ρ c)
theorem entry1_target (c : Dev nD) : W4 m ρ c (Proc.devRef .tc main_v3) = targetRow (m ((c : Thread nD τ).loc main_arg1)) :=
  (stretch1_keep_main_v3 (W2 m ρ c)).trans (exit0_target m ρ c)
theorem entry1_arg2 (c : Dev nD) : W4 m ρ c (Proc.devRef .tc main_arg2) = (m ((c : Thread nD τ).loc main_arg2)) :=
  (stretch1_keep_main_arg2 (W2 m ρ c)).trans (exit0_arg2 m ρ c)
theorem entry1_arg5 (c : Dev nD) : W4 m ρ c (Proc.devRef .tc main_arg5) = (m ((c : Thread nD τ).loc main_arg5)) :=
  (stretch1_keep_main_arg5 (W2 m ρ c)).trans (exit0_arg5 m ρ c)
theorem entry1_arg6 (c : Dev nD) : W4 m ρ c (Proc.devRef .tc main_arg6) = (m ((c : Thread nD τ).loc main_arg6)) :=
  (stretch1_keep_main_arg6 (W2 m ρ c)).trans (exit0_arg6 m ρ c)

/-! ## At the second region's exit -/

theorem exit1_product (c : Dev nD) : W5 m ρ c (Proc.devRef .tc main_v22)
    = matProduct (n := 50000) (k := 512) (d := 256)
        (aggregate512 (F := Ideal) (matProduct (n := 50000) (k := 1024) (d := 512) (m ((c : Thread nD τ).loc main_arg0)) (m ((c : Thread nD τ).loc main_arg3)))
          (sourceRow (m ((c : Thread nD τ).loc main_arg1))) (targetRow (m ((c : Thread nD τ).loc main_arg1))) (m ((c : Thread nD τ).loc main_arg2)) (m ((c : Thread nD τ).loc main_arg4))) (m ((c : Thread nD τ).loc main_arg5)) := by
  refine (W5_arr m ρ c 2).trans ((region1_array (V4 m ρ) c).trans ?_)
  show matProduct (n := 50000) (k := 512) (d := 256) (W4 m ρ c (Proc.devRef .tc main_v21)) (W4 m ρ c (Proc.devRef .tc main_arg5)) = _
  rw [entry1_layer, entry1_arg5]
theorem exit1_source (c : Dev nD) : W5 m ρ c (Proc.devRef .tc main_v1) = sourceRow (m ((c : Thread nD τ).loc main_arg1)) :=
  (W5_of_ne m ρ c main_v1 (by decide)).trans (entry1_source m ρ c)
theorem exit1_target (c : Dev nD) : W5 m ρ c (Proc.devRef .tc main_v3) = targetRow (m ((c : Thread nD τ).loc main_arg1)) :=
  (W5_of_ne m ρ c main_v3 (by decide)).trans (entry1_target m ρ c)
theorem exit1_arg2 (c : Dev nD) : W5 m ρ c (Proc.devRef .tc main_arg2) = (m ((c : Thread nD τ).loc main_arg2)) :=
  (W5_of_ne m ρ c main_arg2 (by decide)).trans (entry1_arg2 m ρ c)
theorem exit1_arg6 (c : Dev nD) : W5 m ρ c (Proc.devRef .tc main_arg6) = (m ((c : Thread nD τ).loc main_arg6)) :=
  (W5_of_ne m ρ c main_arg6 (by decide)).trans (entry1_arg6 m ρ c)

/-! ## At the return -/

/-- The result buffer at the last boundary holds the encoder of the launch contents of the arguments. -/
theorem result_value (c : Dev nD) : W7 m ρ c (Proc.devRef .tc main_v39)
    = encoder (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (stretch2_result (W5 m ρ c)).trans ?_
  rw [exit1_product, exit1_source, exit1_target, exit1_arg2, exit1_arg6]
  rfl

end Cert.KernelIdeal.Bridge

end
-- ==== Proof.RefValue.lean ====
/-
  The reference's result as the same function of its arguments.

  The reference applies its operations one after another to whole arrays.  Its two dot_general stages are matrix
  products read entry by entry as the sum over the contracted coordinate, which is the product function the kernel's
  regions were read against; the operations after each product are, line for line, the layer functions the kernel
  program's host stretches apply.  So the reference's last stage is the encoder of the arguments.
-/
import proofs.«121326_j42125039239628_1_alg».proof.Proof.Gen.ReferenceIdeal.Read
import proofs.«121326_j42125039239628_1_alg».proof.Proof.Encoder

set_option maxRecDepth 16384

noncomputable section

namespace Cert.ReferenceIdeal.Bridge

open Cert.ReferenceIdeal Cert.ReferenceIdeal.Gen Cert.MatProduct Cert.KernelIdeal.Bridge
open Idealize.ShloMosaic Idealize.ShloMosaic.ValueIdx

/-- The first dot_general stage is the product of the node features with the first weight matrix. -/
theorem stage_product1 (x0 : (⟨S50000x1024, .f32⟩ : BufTy).Contents (Elt Ideal)) (x3 : (⟨S1024x512, .f32⟩ : BufTy).Contents (Elt Ideal)) :
    Read.val_main_v4 (F := Ideal) x0 x3 = matProduct (n := 50000) (k := 1024) (d := 512) x0 x3 := by
  funext i
  rw [Read.val_main_v4_apply]
  refine Finset.sum_congr rfl fun k _ => ?_
  have el : Read.lidx_main_v4 i k = ix2 (i 0) k := funext fun a => by match a with | ⟨0, _⟩ => rfl | ⟨1, _⟩ => rfl
  have er : Read.ridx_main_v4 i k = ix2 k (i 1) := funext fun a => by match a with | ⟨0, _⟩ => rfl | ⟨1, _⟩ => rfl
  rw [el, er]
  rfl

/-- The operations between the two dot_general stages are the first layer's aggregation. -/
theorem stage_layer1 (x0 : (⟨S50000x1024, .f32⟩ : BufTy).Contents (Elt Ideal)) (x1 : (⟨S2x400000, .i32⟩ : BufTy).Contents (Elt Ideal)) (x2 : (⟨S400000, .f32⟩ : BufTy).Contents (Elt Ideal)) (x3 : (⟨S1024x512, .f32⟩ : BufTy).Contents (Elt Ideal)) (x4 : (⟨S512, .f32⟩ : BufTy).Contents (Elt Ideal)) :
    Read.val_main_v21 (F := Ideal) x0 x1 x2 x3 x4
      = aggregate512 (F := Ideal) (Read.val_main_v4 (F := Ideal) x0 x3) (sourceRow x1) (targetRow x1) x2 x4 := rfl

/-- The second dot_general stage is the product of the first layer's output with the second weight matrix. -/
theorem stage_product2 (x0 : (⟨S50000x1024, .f32⟩ : BufTy).Contents (Elt Ideal)) (x1 : (⟨S2x400000, .i32⟩ : BufTy).Contents (Elt Ideal)) (x2 : (⟨S400000, .f32⟩ : BufTy).Contents (Elt Ideal)) (x3 : (⟨S1024x512, .f32⟩ : BufTy).Contents (Elt Ideal)) (x4 : (⟨S512, .f32⟩ : BufTy).Contents (Elt Ideal)) (x5 : (⟨S512x256, .f32⟩ : BufTy).Contents (Elt Ideal)) :
    Read.val_main_v22 (F := Ideal) x0 x1 x2 x3 x4 x5
      = matProduct (n := 50000) (k := 512) (d := 256) (Read.val_main_v21 (F := Ideal) x0 x1 x2 x3 x4) x5 := by
  funext i
  rw [Read.val_main_v22_apply]
  refine Finset.sum_congr rfl fun k _ => ?_
  have el : Read.lidx_main_v22 i k = ix2 (i 0) k := funext fun a => by match a with | ⟨0, _⟩ => rfl | ⟨1, _⟩ => rfl
  have er : Read.ridx_main_v22 i k = ix2 k (i 1) := funext fun a => by match a with | ⟨0, _⟩ => rfl | ⟨1, _⟩ => rfl
  rw [el, er]
  rfl

/-- The operations after the second dot_general stage are the second layer's aggregation. -/
theorem stage_layer2 (x0 : (⟨S50000x1024, .f32⟩ : BufTy).Contents (Elt Ideal)) (x1 : (⟨S2x400000, .i32⟩ : BufTy).Contents (Elt Ideal)) (x2 : (⟨S400000, .f32⟩ : BufTy).Contents (Elt Ideal)) (x3 : (⟨S1024x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) :
    Read.val_main_v39 (F := Ideal) x0 x1 x2 x3 x4 x5 x6
      = aggregate256 (F := Ideal) (Read.val_main_v22 (F := Ideal) x0 x1 x2 x3 x4 x5) (sourceRow x1) (targetRow x1) x2 x6 := rfl

/-- The reference's last stage is the encoder of its arguments (x3, x4 the first layer's weights and bias; x5, x6 the
    second's). -/
theorem result_value (x0 : (⟨S50000x1024, .f32⟩ : BufTy).Contents (Elt Ideal)) (x1 : (⟨S2x400000, .i32⟩ : BufTy).Contents (Elt Ideal)) (x2 : (⟨S400000, .f32⟩ : BufTy).Contents (Elt Ideal)) (x3 : (⟨S1024x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) :
    Read.val_main_v39 (F := Ideal) x0 x1 x2 x3 x4 x5 x6 = encoder x0 x1 x2 x3 x4 x5 x6 := by
  rw [stage_layer2, stage_product2, stage_layer1, stage_product1]
  rfl

end Cert.ReferenceIdeal.Bridge

end
-- ==== Proof.lean ====
/-
  A two-layer graph-convolution encoder: the kernel program against its reference.

  Each layer multiplies the node features by a weight matrix, gathers the product's rows along the edges, scales them
  by the edge weights, adds them up per destination node, adds a bias and floors at zero.  The kernel program does the
  two matrix products in tiled matmul regions (25 bands of 2000 rows, operands rounded to bf16 on the way in) and the
  rest with the same host operations as the reference, which does the products whole.

  On the extended reals rounding to bf16 is the identity and a band of the product is the same sums as the matching rows
  of the whole product, so each region leaves the whole product in its result array, and the two programs compute one
  function of their arguments, the encoder.  No property of the inputs is needed: the sums are the same sums, term by
  term, never regrouped.

  The three programs run, terminate and leave their arguments as launched: the kernel programs by their regions'
  pipelines and host stretches in sequence, the reference by its straight line of host operations.  The idealized kernel
  is the kernel's own text read on the extended reals: the idealization rewrote nothing, so there is nothing to preserve.
-/
import proofs.«121326_j42125039239628_1_alg».proof.Defs
import proofs.«121326_j42125039239628_1_alg».proof.Proof.Gen.Kernel
import proofs.«121326_j42125039239628_1_alg».proof.Proof.Gen.Kernel.Skeleton
import proofs.«121326_j42125039239628_1_alg».proof.Proof.Gen.Kernel.Launch
import proofs.«121326_j42125039239628_1_alg».proof.Proof.Gen.Kernel.Points
import proofs.«121326_j42125039239628_1_alg».proof.Proof.Gen.Kernel.Frame
import proofs.«121326_j42125039239628_1_alg».proof.Proof.Gen.KernelIdeal
import proofs.«121326_j42125039239628_1_alg».proof.Proof.Gen.KernelIdeal.Skeleton
import proofs.«121326_j42125039239628_1_alg».proof.Proof.Gen.KernelIdeal.Launch
import proofs.«121326_j42125039239628_1_alg».proof.Proof.Gen.KernelIdeal.Points
import proofs.«121326_j42125039239628_1_alg».proof.Proof.Gen.KernelIdeal.Frame
import proofs.«121326_j42125039239628_1_alg».proof.Proof.Gen.ReferenceIdeal
import proofs.«121326_j42125039239628_1_alg».proof.Proof.Gen.Pre_finite_inputs
import proofs.«121326_j42125039239628_1_alg».proof.Proof.Gen.ReferenceIdeal.Run
import proofs.«121326_j42125039239628_1_alg».proof.Proof.Gen.ReferenceIdeal.Read
import proofs.«121326_j42125039239628_1_alg».proof.Proof.KernelRun
import proofs.«121326_j42125039239628_1_alg».proof.Proof.KernelValue
import proofs.«121326_j42125039239628_1_alg».proof.Proof.RefValue
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the encoder of those arguments in their result. -/
theorem algebraic : Cert.algebraic_KernelIdeal_ReferenceIdeal := by
  intro m ρ m' ρ' _ hagree
  refine ⟨fun c => Cert.KernelIdeal.Bridge.encoder (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Bridge.result_value m ρ c), (h c).2⟩)
      (Cert.KernelIdeal.Bridge.run_result m ρ)
  · refine (θ_run Cert.ReferenceIdeal.defs _ _).mono (fun _ h c => ⟨?_, (h c).2⟩)
      (Cert.ReferenceIdeal.Value.run (F := Ideal) m' ρ')
    refine (h c).1.trans ((Cert.ReferenceIdeal.Read.val_main_v39_eq _ _ _ _ _ _ _).trans
      ((Cert.ReferenceIdeal.Bridge.result_value _ _ _ _ _ _ _).trans ?_))
    rw [(hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
